-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S16384x4096, .bf16⟩
  | .hbm, ⟨5, _⟩ => ⟨S4096x4096, .bf16⟩
  | .hbm, ⟨6, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x4096.size a
  hwx0_0 : ∀ i : grid0.Coords, EltTy.bits .bf16 = 32 ∨ (Rect.block (s := S16384x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S16384x4096, .f32⟩
  | .hbm, ⟨6, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.MatmulSpec.lean ====
/-
  A dense layer over the extended reals: the one function both programs compute.

  For an activation matrix `x` (16384 × 4096), a weight matrix `w` (4096 × 4096, one row per output feature) and a
  bias vector `b` (4096 entries), the layer's output at row `n` and feature `o` is

      y[n, o] = (∑ c < 4096, x[n, c] · w[o, c]) + b[o].

  The kernel reaches the same sum in two halves of the contraction axis, accumulated from zero:
  `((0 + ∑ c < 2048, …) + ∑ 2048 ≤ c < 4096, …)`. Addition of extended reals is commutative and associative with
  neutral element `0` (also at the infinities), so splitting a finite sum at the middle needs no finiteness.
-/
import Idealize.ShloMosaic.PureOps.Ideal
import Idealize.ShloMosaic.Lib.ValueIdx

noncomputable section

namespace Cert.Dense

open Idealize.ShloMosaic Idealize.ShloMosaic.ValueIdx

/-- The dense layer `y[n, o] = (∑ c, x[n, c] · w[o, c]) + b[o]`, index by index. -/
def affine (x : (⟨2, ![16384, 4096]⟩ : Shape).Idx → EReal) (w : (⟨2, ![4096, 4096]⟩ : Shape).Idx → EReal)
    (b : (⟨1, ![4096]⟩ : Shape).Idx → EReal) : (⟨2, ![16384, 4096]⟩ : Shape).Idx → EReal :=
  fun i => (∑ k : Fin 4096, x (ix2 (i 0) k) * w (ix2 (i 1) k)) + b (ix1 (i 1))

/-- Position `k` of the lower half of the contraction axis. -/
def lo (k : Fin 2048) : Fin 4096 := ⟨k.val, by have := k.isLt; omega⟩

/-- Position `k` of the upper half of the contraction axis: `2048 + k`. -/
def hi (k : Fin 2048) : Fin 4096 := ⟨2048 + k.val, by have := k.isLt; omega⟩

theorem lo_val (k : Fin 2048) : (lo k).val = k.val := rfl

theorem hi_val (k : Fin 2048) : (hi k).val = 2048 + k.val := rfl

/-- A sum over the 4096 contraction positions is the sum over the lower half plus the sum over the upper half, and a
    leading zero changes nothing: in any commutative additive monoid. -/
theorem sum_halves {M : Type*} [AddCommMonoid M] (f : Fin 4096 → M) :
    (0 + ∑ k : Fin 2048, f (lo k)) + ∑ k : Fin 2048, f (hi k) = ∑ k : Fin 4096, f k := by
  rw [zero_add]
  exact (Fin.sum_univ_add (a := 2048) (b := 2048) f).symm

end Cert.Dense

end
-- ==== Proof.ReferenceIsAffine.lean ====
/-
  The reference computes the dense layer: jnp's `einsum('nc,oc->no', x, w) + b[None, :]` is one `dot_general`
  contracting the second axis of both operands, the bias broadcast along the rows, and an addition. Read at an
  index `(n, o)` over the extended reals this is `(∑ c, x[n, c] · w[o, c]) + b[o]`.
-/
import proofs.«129736_j31164282700431_2_alg».proof.Proof.Gen.ReferenceIdeal.Read
import proofs.«129736_j31164282700431_2_alg».proof.Proof.MatmulSpec

noncomputable section

namespace Cert.ReferenceIdeal.RefValue

open Cert.ReferenceIdeal Cert.ReferenceIdeal.Read Idealize.ShloMosaic Idealize.ShloMosaic.ValueIdx

/-- The reference's result, as a function of its three arguments, is the dense layer: the product's operand indices at
    `(n, o)` and contraction position `k` are `(n, k)` and `(o, k)`, and the two broadcasts read the bias at `o`. -/
theorem result_eq (x0 : (⟨S16384x4096, .f32⟩ : BufTy).Contents (Elt Ideal)) (x1 : (⟨S4096x4096, .f32⟩ : BufTy).Contents (Elt Ideal))
    (x2 : (⟨S4096, .f32⟩ : BufTy).Contents (Elt Ideal)) :
    val_main_v3 (F := Ideal) x0 x1 x2 = Cert.Dense.affine x0 x1 x2 := by
  funext i
  have el : ∀ k : Fin 4096, lidx_main_v0 i k = ix2 (i 0) k := fun k =>
    funext fun a => Fin.ext (by match a with | ⟨0, _⟩ => rfl | ⟨1, _⟩ => rfl)
  have er : ∀ k : Fin 4096, ridx_main_v0 i k = ix2 (i 1) k := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  rw [val_main_v3_apply, val_main_v0_apply, val_main_v2_apply, val_main_v1_apply]
  simp only [el, er, eb]
  rfl

end Cert.ReferenceIdeal.RefValue

end
-- ==== Proof.KernelPieces.lean ====
/-
  What one grid step leaves behind, as values.

  The kernel walks a 16 × 4 × 2 grid; the last axis splits the contraction into two halves. At the first half of a
  pair the body clears its accumulator, reads it back, and stores `0 + (x-block · w-blockᵀ)` in it; nothing reaches the
  output block. At the second half it adds the second product to what the first half left, and stores that sum plus the
  bias row into the output block. Both facts hold for any float semantics: they only say which stored value is read
  back where, each load and store covering its whole buffer from offset zero.
-/
import proofs.«129736_j31164282700431_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- After the first half of a pair the accumulator holds the body's accumulate step applied to the two input blocks and
    the zero block it has just stored (the read-back of a whole-buffer store is the stored value). -/
theorem acc_first (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x2048 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz]

/-- After the second half of a pair the output block holds the finishing step (add the bias row) applied to the
    accumulate step over the two input blocks and what the accumulator held before (`xs`). -/
theorem out_second (c : Dev nD) (i : grid0.Coords) (a3 : Memref sig .tc .vmem S1024x2048 .bf16) (h3 : a3.IsWhole)
    (a4 : Memref sig .tc .vmem S1024x2048 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x2048 .bf16) (x2 : Vec F S1x1024 .f32) (xs : Vec F S1024x1024 .f32) :
    out0_B_3 c i a3 h3 a4 h4 a5 h5 a6 h6 a7 h7 hc0 hc1 x0 x1 x2 xs = k0_pay3 (k0_pay2 x0 x1 xs) x2 := by
  unfold out0_B_3
  rw [View.read_writes_eq_canon _ _ _ (cover0_B_3 c i a3 h3 a4 h4 a5 h5 a6 h6 a7 h7 hc0 hc1 x0 x1 x2 xs)]
  unfold kernelRun0_B
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x2048) hz, View.ld_unit_zero (S := S1024x1024) hz, View.ld_unit_zero (S := S1x1024) hz]

end Cert.KernelIdeal.Pieces

end
-- ==== Proof.BlockValue.lean ====
/-
  One output block, entry by entry, over the extended reals.

  The body's arithmetic is three pure terms: the zero block; the accumulate step `acc + X · Wᵀ` (a matrix product into a
  zero accumulator, contracting the second axis of both 1024 × 2048 blocks, then an addition); and the finishing step
  `acc + bias row`. Read at row `p` and column `q` of the 1024 × 1024 block:

    zero block            ↦ 0
    accumulate X W A      ↦ A[p, q] + ∑ k < 2048, X[p, k] · W[q, k]
    finish A B            ↦ A[p, q] + B[0, q]

  so the pair of grid steps that share an output block leaves
  `((0 + ∑ k, X₀[p, k] · W₀[q, k]) + ∑ k, X₁[p, k] · W₁[q, k]) + B[0, q]` there.
-/
import proofs.«129736_j31164282700431_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-! ## The product's operand indices -/

/-- The left operand is read at the output's row … -/
theorem lhs_row (i : S1024x1024.Idx) (r : dot_S1024x2048_S1024x2048_S1024x1024_1_1_0_0_n_n.contr.Idx) :
    (dot_S1024x2048_S1024x2048_S1024x1024_1_1_0_0_n_n.lhsIdx i r 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl

/-- … and at the contraction position; -/
theorem lhs_pos (i : S1024x1024.Idx) (r : dot_S1024x2048_S1024x2048_S1024x1024_1_1_0_0_n_n.contr.Idx) :
    (dot_S1024x2048_S1024x2048_S1024x1024_1_1_0_0_n_n.lhsIdx i r 1).val = (r ⟨0, by decide⟩).val :=
  dot_S1024x2048_S1024x2048_S1024x1024_1_1_0_0_n_n.lhsIdx_val_of_single rfl i r

/-- the right operand at the output's column … -/
theorem rhs_row (i : S1024x1024.Idx) (r : dot_S1024x2048_S1024x2048_S1024x1024_1_1_0_0_n_n.contr.Idx) :
    (dot_S1024x2048_S1024x2048_S1024x1024_1_1_0_0_n_n.rhsIdx i r 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl

/-- … and at the contraction position. -/
theorem rhs_pos (i : S1024x1024.Idx) (r : dot_S1024x2048_S1024x2048_S1024x1024_1_1_0_0_n_n.contr.Idx) :
    (dot_S1024x2048_S1024x2048_S1024x1024_1_1_0_0_n_n.rhsIdx i r 1).val = (r ⟨0, by decide⟩).val :=
  dot_S1024x2048_S1024x2048_S1024x1024_1_1_0_0_n_n.rhsIdx_val_of_single rfl i r

/-- The matrix product into a zero accumulator, at `(p, q)`: the sum over the 2048 contraction positions of
    `X[p, k] · W[q, k]`. -/
theorem product_apply (X W : FVec Ideal S1024x2048 .bf16) (p q : Fin 1024) :
    FloatOps.matmul dot_S1024x2048_S1024x2048_S1024x1024_1_1_0_0_n_n none X W (constant (F := Ideal) S1024x1024 .f32 0x00000000#32) (ix2 p q)
      = ∑ k : Fin 2048, X (ix2 p k) * W (ix2 q k) := by
  rw [Ideal.matmul_constant_zero_apply,
    ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k :=
    funext fun a => Fin.ext (by
      match a with
      | ⟨0, _⟩ => exact lhs_row _ _
      | ⟨1, _⟩ => exact (lhs_pos _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k :=
    funext fun a => Fin.ext (by
      match a with
      | ⟨0, _⟩ => exact rhs_row _ _
      | ⟨1, _⟩ => exact (rhs_pos _ _).trans hk)
  rw [el, er]

/-! ## The three steps at an entry -/

/-- The zero block is `0` everywhere. -/
theorem zero_apply (j : S1024x1024.Idx) : k0_pay1 (F := Ideal) j = 0 := by
  unfold k0_pay1
  rw [shapeCast_self]
  exact Ideal.ofBits_zero_f32

/-- The accumulate step at `(p, q)`: what the accumulator held there plus the product's entry. -/
theorem accumulate_apply (X W : FVec Ideal S1024x2048 .bf16) (A : FVec Ideal S1024x1024 .f32) (p q : Fin 1024) :
    k0_pay2 (F := Ideal) X W A (ix2 p q) = A (ix2 p q) + ∑ k : Fin 2048, X (ix2 p k) * W (ix2 q k) := by
  unfold k0_pay2
  rw [shapeCast_self, shapeCast_self, shapeCast_self]
  exact congrArg (A (ix2 p q) + ·) (product_apply X W p q)

/-- The finishing step at `(p, q)`: the accumulator's entry plus the bias row's entry `q`. -/
theorem finish_apply (A : FVec Ideal S1024x1024 .f32) (B : FVec Ideal S1x1024 .f32) (p q : Fin 1024) :
    k0_pay3 (F := Ideal) A B (ix2 p q) = A (ix2 p q) + B (ix2 (0 : Fin 1) q) := by
  unfold k0_pay3
  rw [shapeCast_self]
  exact congrArg (A (ix2 p q) + ·) (broadcastTo_1b_ab_apply B broadcasts_S1x1024_S1024x1024 p q)

/-- The two grid steps of a pair, composed, at `(p, q)`. -/
theorem pair_apply (X0 W0 X1 W1 : FVec Ideal S1024x2048 .bf16) (B : FVec Ideal S1x1024 .f32) (p q : Fin 1024) :
    k0_pay3 (F := Ideal) (k0_pay2 (F := Ideal) X1 W1 (k0_pay2 (F := Ideal) X0 W0 (k0_pay1 (F := Ideal)))) B (ix2 p q)
      = ((0 + ∑ k : Fin 2048, X0 (ix2 p k) * W0 (ix2 q k)) + ∑ k : Fin 2048, X1 (ix2 p k) * W1 (ix2 q k))
          + B (ix2 (0 : Fin 1) q) := by
  rw [finish_apply, accumulate_apply, accumulate_apply, zero_apply]

end Cert.KernelIdeal.BlockValue

end
-- ==== Proof.PairValue.lean ====
/-
  The pair of grid steps that share an output block computes the dense layer there.

  If the first step's blocks hold the lower halves of row `n` of the activations and of row `o` of the weights, the
  second step's blocks the upper halves, and the bias block holds `b[o]` in its column `q`, then entry `(p, q)` of
  the output block is `((0 + ∑ lower) + ∑ upper) + b[o]`, which is the full sum plus `b[o]`: splitting the contraction
  at the middle.
-/
import proofs.«129736_j31164282700431_2_alg».proof.Proof.BlockValue
import proofs.«129736_j31164282700431_2_alg».proof.Proof.MatmulSpec

noncomputable section

namespace Cert.KernelIdeal.BlockValue

open Cert.KernelIdeal Cert.KernelIdeal.Gen Idealize.ShloMosaic Idealize.ShloMosaic.ValueIdx Cert.Dense

/-- Entry `(p, q)` of the output block after a pair of steps is the dense layer at `(n, o)`, given where the blocks'
    entries sit in the argument arrays. -/
theorem pair_is_affine (x : (⟨2, ![16384, 4096]⟩ : Shape).Idx → EReal) (w : (⟨2, ![4096, 4096]⟩ : Shape).Idx → EReal)
    (b : (⟨1, ![4096]⟩ : Shape).Idx → EReal)
    (X0 W0 X1 W1 : FVec Ideal S1024x2048 .bf16) (B : FVec Ideal S1x1024 .f32) (p q : Fin 1024) (n : Fin 16384) (o : Fin 4096)
    (hX0 : ∀ k : Fin 2048, X0 (ix2 p k) = x (ix2 n (lo k))) (hX1 : ∀ k : Fin 2048, X1 (ix2 p k) = x (ix2 n (hi k)))
    (hW0 : ∀ k : Fin 2048, W0 (ix2 q k) = w (ix2 o (lo k))) (hW1 : ∀ k : Fin 2048, W1 (ix2 q k) = w (ix2 o (hi k)))
    (hB : B (ix2 (0 : Fin 1) q) = b (ix1 o)) :
    k0_pay3 (F := Ideal) (k0_pay2 (F := Ideal) X1 W1 (k0_pay2 (F := Ideal) X0 W0 (k0_pay1 (F := Ideal)))) B (ix2 p q)
      = affine x w b (ix2 n o) := by
  rw [pair_apply]
  simp only [hX0, hX1, hW0, hW1, hB]
  show _ = (∑ k : Fin 4096, x (ix2 n k) * w (ix2 o k)) + b (ix1 o)
  exact congrArg (· + b (ix1 o)) (sum_halves fun k => x (ix2 n k) * w (ix2 o k))

end Cert.KernelIdeal.BlockValue

end
-- ==== Proof.ArrayValue.lean ====
/-
  From output blocks to the whole result array.

  The grid's linear position `t` runs over (row block, feature block, contraction half) with the half fastest, so the
  steps come in pairs `t - 1`, `t` (`t` odd) sharing one 1024 × 1024 output block at block row `t / 8` and block column
  `(t / 2) % 4`; only the second step of a pair writes the block back. Entry `(p, q)` of that block is entry
  (block row × 1024 + `p`, block column × 1024 + `q`) of the result, the activations blocks of the pair are the two
  halves of the same rows, the weights blocks the two halves of the rows `o` of the weights, and the bias block the
  matching 1024 entries of the bias. Hence what the pair writes back is its block of the dense layer, the sixteen by
  four blocks tile the result array, and the array ends holding the dense layer of the arguments.
-/
import proofs.«129736_j31164282700431_2_alg».proof.Proof.Gen.KernelIdeal.Value
import proofs.«129736_j31164282700431_2_alg».proof.Proof.KernelPieces
import proofs.«129736_j31164282700431_2_alg».proof.Proof.BlockValue
import proofs.«129736_j31164282700431_2_alg».proof.Proof.PairValue
import proofs.«129736_j31164282700431_2_alg».proof.Proof.MatmulSpec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the kernel's windows read

Before the kernel runs, the activations and the weights are converted to bf16 and the bias vector is reshaped to one
row. Over the extended reals a change of float format is the identity, and the reshape reads entry `o` of the vector at
`(0, o)`. -/

/-- The activations window's array is the activation argument, format changed. -/
theorem V_x (c : Dev nD) : (V m c main_v1 : S16384x4096.Idx → EReal)
    = (truncf (F := Ideal) (s := S16384x4096) (φ := .f32) .bf16 (m ((c : Thread nD τ).loc main_arg0)) bitsLt_bf16_f32 : S16384x4096.Idx → EReal) := by
  dsimp only [Gen.V, Gen.hostOps0]; after_results

/-- The weights window's array is the weight argument, format changed. -/
theorem V_w (c : Dev nD) : (V m c main_v2 : S4096x4096.Idx → EReal)
    = (truncf (F := Ideal) (s := S4096x4096) (φ := .f32) .bf16 (m ((c : Thread nD τ).loc main_arg1)) bitsLt_bf16_f32 : S4096x4096.Idx → EReal) := by
  dsimp only [Gen.V, Gen.hostOps0]; after_results

/-- The bias window's array is the bias argument as one row. -/
theorem V_b (c : Dev nD) : (V m c main_v0 : S1x4096.Idx → EReal)
    = shapeCast S1x4096 (m ((c : Thread nD τ).loc main_arg2) : S4096.Idx → EReal) shapeCasts_S4096_S1x4096 := by
  dsimp only [Gen.V, Gen.hostOps0]; after_results; rfl

/-! ## A block's entry is an entry of the argument

A window's block at a grid step starts at (block index × block size) on each axis. -/

/-- Entry `(p, k)` of the activations block at step `t` is `x[n, cc]` with `n` = block row × 1024 + `p` and
    `cc` = block column × 2048 + `k`. -/
theorem x_block (c : Dev nD) (t : Fin cfg0.N) (p : Fin 1024) (k : Fin 2048) (n : Fin 16384) (cc : Fin 4096)
    (hn : n.val = win0_0.index t (0 : Fin 2) * 1024 + p.val) (hc : cc.val = win0_0.index t (1 : Fin 2) * 2048 + k.val) :
    (iblk m c 0 t : FVec Ideal S1024x2048 .bf16) (ix2 p k)
      = (m ((c : Thread nD τ).loc main_arg0) : S16384x4096.Idx → EReal) (ix2 n cc) := by
  unfold iblk
  rw [View.read_apply]
  show (V m c main_v1 : S16384x4096.Idx → EReal) _ = _
  rw [V_x]
  show (m ((c : Thread nD τ).loc main_arg0) : S16384x4096.Idx → EReal) _ = _
  refine congrArg _ (funext fun a => Fin.ext ?_)
  match a with
  | ⟨0, _⟩ => show win0_0.index t (0 : Fin 2) * 1024 + 1 * p.val = n.val; omega
  | ⟨1, _⟩ => show win0_0.index t (1 : Fin 2) * 2048 + 1 * k.val = cc.val; omega

/-- Entry `(q, k)` of the weights block at step `t` is `w[o, cc]` with `o` = block row × 1024 + `q` and
    `cc` = block column × 2048 + `k`. -/
theorem w_block (c : Dev nD) (t : Fin cfg0.N) (q : Fin 1024) (k : Fin 2048) (o : Fin 4096) (cc : Fin 4096)
    (ho : o.val = win0_1.index t (0 : Fin 2) * 1024 + q.val) (hc : cc.val = win0_1.index t (1 : Fin 2) * 2048 + k.val) :
    (iblk m c 1 t : FVec Ideal S1024x2048 .bf16) (ix2 q k)
      = (m ((c : Thread nD τ).loc main_arg1) : S4096x4096.Idx → EReal) (ix2 o cc) := by
  unfold iblk
  rw [View.read_apply]
  show (V m c main_v2 : S4096x4096.Idx → EReal) _ = _
  rw [V_w]
  show (m ((c : Thread nD τ).loc main_arg1) : S4096x4096.Idx → EReal) _ = _
  refine congrArg _ (funext fun a => Fin.ext ?_)
  match a with
  | ⟨0, _⟩ => show win0_1.index t (0 : Fin 2) * 1024 + 1 * q.val = o.val; omega
  | ⟨1, _⟩ => show win0_1.index t (1 : Fin 2) * 2048 + 1 * k.val = cc.val; omega

/-- Entry `(0, q)` of the bias block at step `t` is `b[o]` with `o` = block column × 1024 + `q`. -/
theorem b_block (c : Dev nD) (t : Fin cfg0.N) (q : Fin 1024) (o : Fin 4096)
    (hr : win0_2.index t (0 : Fin 2) = 0) (ho : o.val = win0_2.index t (1 : Fin 2) * 1024 + q.val) :
    (iblk m c 2 t : FVec Ideal S1x1024 .f32) (ix2 (0 : Fin 1) q)
      = (m ((c : Thread nD τ).loc main_arg2) : S4096.Idx → EReal) (ix1 o) := by
  unfold iblk
  rw [View.read_apply]
  show (V m c main_v0 : S1x4096.Idx → EReal) _ = _
  rw [V_b]
  have he : ((cfg0.win 2).blk t).view.emb (ix2 (0 : Fin 1) q) = (ix2 (0 : Fin 1) o : S1x4096.Idx) :=
    funext fun a => Fin.ext (by
      match a with
      | ⟨0, _⟩ => show win0_2.index t (0 : Fin 2) * 1 + 1 * 0 = 0; omega
      | ⟨1, _⟩ => show win0_2.index t (1 : Fin 2) * 1024 + 1 * q.val = o.val; omega)
  rw [he]
  exact shapeCast_a_1a_apply _ shapeCasts_S4096_S1x4096 0 o

/-! ## What a pair of grid steps writes back -/

/-- The result array: the dense layer of the three arguments. -/
abbrev result (c : Dev nD) : Buf (Elt Ideal) ((c : Thread nD τ).loc main_v3) :=
  Cert.Dense.affine (m ((c : Thread nD τ).loc main_arg0)) (m ((c : Thread nD τ).loc main_arg1)) (m ((c : Thread nD τ).loc main_arg2))

/-- The index maps over the grid. At a step `t` that ends a pair (odd position) the activations and weights blocks are
    the upper halves of the contraction axis, at the step before the lower halves, all in the block row and block column
    of the output block; the bias block is the output's block column. -/
theorem idx_facts : ∀ t : Fin cfg0.N, t.val % 2 = 1 →
    win0_0.index t (0 : Fin 2) = win0_3.index t (0 : Fin 2) ∧ win0_0.index t (1 : Fin 2) = 1
    ∧ win0_0.index ⟨t.val - 1, Nat.lt_of_le_of_lt (Nat.sub_le _ _) t.isLt⟩ (0 : Fin 2) = win0_3.index t (0 : Fin 2)
    ∧ win0_0.index ⟨t.val - 1, Nat.lt_of_le_of_lt (Nat.sub_le _ _) t.isLt⟩ (1 : Fin 2) = 0
    ∧ win0_1.index t (0 : Fin 2) = win0_3.index t (1 : Fin 2) ∧ win0_1.index t (1 : Fin 2) = 1
    ∧ win0_1.index ⟨t.val - 1, Nat.lt_of_le_of_lt (Nat.sub_le _ _) t.isLt⟩ (0 : Fin 2) = win0_3.index t (1 : Fin 2)
    ∧ win0_1.index ⟨t.val - 1, Nat.lt_of_le_of_lt (Nat.sub_le _ _) t.isLt⟩ (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, t.val % 2 = 1 → _)

/-- Every output block is written back by some pair's last step. -/
theorem idx_onto : ∀ (q0 : Fin 16) (q1 : Fin 4), ∃ t : Fin cfg0.N, t.val % 2 = 1 ∧ win0_3.index t = ![q0.val, q1.val] :=
  (by decide +kernel : ∀ (q0 : Fin 16) (q1 : Fin 4), ∃ t : Fin grid0.N, t.val % 2 = 1 ∧ win0_3.index t = ![q0.val, q1.val])

/-- After the first step of a pair the accumulator holds the accumulate step of that step's blocks over the zero block. -/
theorem scratch_first (c : Dev nD) (s : Fin cfg0.N) (h0 : s.val % 2 = 0) (h1 : ¬s.val % 2 = 1) :
    (outsAt0 m c s.val s.isLt).2
      = k0_pay2 (F := Ideal) (iblk m c 0 s) (iblk m c 1 s) (k0_pay1 (F := Ideal)) := by
  refine (congrArg Prod.snd (outsAt0_A m c s h0 h1)).trans ?_
  dsimp only
  exact Pieces.acc_first (F := Ideal) c (grid0.coords s) (ms0_0 s) (hs0_0 s) (ms0_1 s) (hs0_1 s) (ms0_2 s) (hs0_2 s)
    (ms0_3 s) (hs0_3 s) scM0_0 (Memref.isWhole_whole _) ((hcond0_0 s).mpr h0) (fun h => h1 ((hcond0_1 s).mp h))
    (iblk m c 0 s) (iblk m c 1 s) (iblk m c 2 s)

/-- After the second step of a pair the output's staging buffer holds the finishing step of the accumulate step of that
    step's blocks over what the step before left in the accumulator. -/
theorem staged_second (c : Dev nD) (t : Fin cfg0.N) (h0 : ¬t.val % 2 = 0) (h1 : t.val % 2 = 1) :
    (outsAt0 m c t.val t.isLt).1
      = k0_pay3 (F := Ideal) (k0_pay2 (F := Ideal) (iblk m c 0 t) (iblk m c 1 t)
          (outsAt0 m c (t.val - 1) (Nat.lt_of_le_of_lt (Nat.sub_le _ _) t.isLt)).2) (iblk m c 2 t) := by
  refine (congrArg Prod.fst (outsAt0_B m c t h0 h1)).trans ?_
  dsimp only
  exact Pieces.out_second (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- What the last step of a pair writes back is its block of the dense layer: entry `(p, q)` of the block is the layer at
    row (block row × 1024 + `p`) and feature (block column × 1024 + `q`). -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have h0 : ¬t.val % 2 = 0 := by omega
  have h0' : (⟨t.val - 1, Nat.lt_of_le_of_lt (Nat.sub_le _ _) t.isLt⟩ : Fin cfg0.N).val % 2 = 0 := by
    show (t.val - 1) % 2 = 0; omega
  have h1' : ¬(⟨t.val - 1, Nat.lt_of_le_of_lt (Nat.sub_le _ _) t.isLt⟩ : Fin cfg0.N).val % 2 = 1 := by
    show ¬(t.val - 1) % 2 = 1; omega
  rw [flushed3 m c t, staged_second m c t h0 h1,
    scratch_first m c ⟨t.val - 1, Nat.lt_of_le_of_lt (Nat.sub_le _ _) t.isLt⟩ h0' h1']
  obtain ⟨e0, e1, e2, e3, e4, e5, e6, e7, e8, e9, e10, e11⟩ := idx_facts t h1
  funext j
  obtain ⟨p, q, rfl⟩ : ∃ (p q : Fin 1024), j = ix2 p q := ⟨j 0, j 1, eq_ix2 (n0 := 1024) (n1 := 1024) j⟩
  have hp : p.val < 1024 := p.isLt
  have hq : q.val < 1024 := q.isLt
  have hemb : ((cfg0.win 3).blk t).view.emb (ix2 p q)
      = (ix2 (⟨win0_3.index t (0 : Fin 2) * 1024 + p.val, by omega⟩ : Fin 16384)
          (⟨win0_3.index t (1 : Fin 2) * 1024 + q.val, by omega⟩ : Fin 4096) : S16384x4096.Idx) :=
    funext fun a => Fin.ext (by
      match a with
      | ⟨0, _⟩ => show win0_3.index t (0 : Fin 2) * 1024 + 1 * p.val = win0_3.index t (0 : Fin 2) * 1024 + p.val; omega
      | ⟨1, _⟩ => show win0_3.index t (1 : Fin 2) * 1024 + 1 * q.val = win0_3.index t (1 : Fin 2) * 1024 + q.val; omega)
  rw [View.read_apply, hemb]
  show k0_pay3 (F := Ideal) (k0_pay2 (F := Ideal) (iblk m c 0 t) (iblk m c 1 t)
      (k0_pay2 (F := Ideal) (iblk m c 0 ⟨t.val - 1, Nat.lt_of_le_of_lt (Nat.sub_le _ _) t.isLt⟩) (iblk m c 1 ⟨t.val - 1, Nat.lt_of_le_of_lt (Nat.sub_le _ _) t.isLt⟩) (k0_pay1 (F := Ideal)))) (iblk m c 2 t) (ix2 p q)
    = Cert.Dense.affine (m ((c : Thread nD τ).loc main_arg0)) (m ((c : Thread nD τ).loc main_arg1)) (m ((c : Thread nD τ).loc main_arg2)) (ix2 (⟨win0_3.index t (0 : Fin 2) * 1024 + p.val, by omega⟩ : Fin 16384) (⟨win0_3.index t (1 : Fin 2) * 1024 + q.val, by omega⟩ : Fin 4096))
  exact BlockValue.pair_is_affine (m ((c : Thread nD τ).loc main_arg0)) (m ((c : Thread nD τ).loc main_arg1)) (m ((c : Thread nD τ).loc main_arg2))
    (iblk m c 0 ⟨t.val - 1, Nat.lt_of_le_of_lt (Nat.sub_le _ _) t.isLt⟩) (iblk m c 1 ⟨t.val - 1, Nat.lt_of_le_of_lt (Nat.sub_le _ _) t.isLt⟩) (iblk m c 0 t) (iblk m c 1 t) (iblk m c 2 t) p q (⟨win0_3.index t (0 : Fin 2) * 1024 + p.val, by omega⟩ : Fin 16384) (⟨win0_3.index t (1 : Fin 2) * 1024 + q.val, by omega⟩ : Fin 4096)
    (fun k => x_block m c ⟨t.val - 1, Nat.lt_of_le_of_lt (Nat.sub_le _ _) t.isLt⟩ p k (⟨win0_3.index t (0 : Fin 2) * 1024 + p.val, by omega⟩ : Fin 16384) (Cert.Dense.lo k)
      (by show win0_3.index t (0 : Fin 2) * 1024 + p.val = win0_0.index ⟨t.val - 1, Nat.lt_of_le_of_lt (Nat.sub_le _ _) t.isLt⟩ (0 : Fin 2) * 1024 + p.val; omega)
      (by have hk := Cert.Dense.lo_val k; omega))
    (fun k => x_block m c t p k (⟨win0_3.index t (0 : Fin 2) * 1024 + p.val, by omega⟩ : Fin 16384) (Cert.Dense.hi k)
      (by show win0_3.index t (0 : Fin 2) * 1024 + p.val = win0_0.index t (0 : Fin 2) * 1024 + p.val; omega)
      (by have hk := Cert.Dense.hi_val k; omega))
    (fun k => w_block m c ⟨t.val - 1, Nat.lt_of_le_of_lt (Nat.sub_le _ _) t.isLt⟩ q k (⟨win0_3.index t (1 : Fin 2) * 1024 + q.val, by omega⟩ : Fin 4096) (Cert.Dense.lo k)
      (by show win0_3.index t (1 : Fin 2) * 1024 + q.val = win0_1.index ⟨t.val - 1, Nat.lt_of_le_of_lt (Nat.sub_le _ _) t.isLt⟩ (0 : Fin 2) * 1024 + q.val; omega)
      (by have hk := Cert.Dense.lo_val k; omega))
    (fun k => w_block m c t q k (⟨win0_3.index t (1 : Fin 2) * 1024 + q.val, by omega⟩ : Fin 4096) (Cert.Dense.hi k)
      (by show win0_3.index t (1 : Fin 2) * 1024 + q.val = win0_1.index t (0 : Fin 2) * 1024 + q.val; omega)
      (by have hk := Cert.Dense.hi_val k; omega))
    (b_block m c t q (⟨win0_3.index t (1 : Fin 2) * 1024 + q.val, by omega⟩ : Fin 4096) e8
      (by show win0_3.index t (1 : Fin 2) * 1024 + q.val = win0_2.index t (1 : Fin 2) * 1024 + q.val; omega))

/-! ## The array after the run -/

/-- An index of the result array is in step `t`'s output block iff each coordinate is in the block's range. -/
theorem mem_blk (t : Fin cfg0.N) (i : S16384x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- The output blocks tile the result array: index `(n, o)` lies in block `(n / 1024, o / 1024)`, which the last step
    of that block's pair writes back. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht1, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, (flush0_3 t).mpr ht1, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the run the result array holds the dense layer of the three arguments. -/
theorem final (c : Dev nD) : (dats m 0 c).arrAt 3 cfg0.N = result m c :=
  (dats m 0 c).arrAt_eq_of_cover 3 (result m c) (flushed_eq m c) cover

/-- The kernel's run, read: every weakly fair execution terminates with the result array at the dense layer of the
    arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.lean ====
/-
  A dense layer `y = x · wᵀ + b` (x: 16384 × 4096, w: 4096 × 4096, b: 4096) computed by a tiled kernel, against jnp's
  `einsum('nc,oc->no', x, w) + b`.

  The kernel converts `x` and `w` to bf16, then walks a 16 × 4 × 2 grid of (row block, feature block, contraction half).
  The two steps that share an output block accumulate `0 + X₀ · W₀ᵀ` and then `+ X₁ · W₁ᵀ` in a scratch accumulator, and
  the second writes the accumulator plus the bias row into the 1024 × 1024 output block. Over the extended reals a change
  of float format is the identity and every operation is exact, so entry `(n, o)` of the kernel's result is
  `((0 + ∑ c < 2048, x[n, c] · w[o, c]) + ∑ 2048 ≤ c < 4096, x[n, c] · w[o, c]) + b[o]`; the reference's is
  `(∑ c < 4096, x[n, c] · w[o, c]) + b[o]`. The two agree because a finite sum in a commutative monoid splits at the
  middle of its index range and `0` is neutral; no finiteness of the inputs is used.

  The three frames are the generated runs (the reference's with its result dropped); the idealization rewrote nothing.
-/
import proofs.«129736_j31164282700431_2_alg».proof.Defs
import proofs.«129736_j31164282700431_2_alg».proof.Proof.Gen.Kernel
import proofs.«129736_j31164282700431_2_alg».proof.Proof.Gen.Kernel.Frame
import proofs.«129736_j31164282700431_2_alg».proof.Proof.Gen.KernelIdeal
import proofs.«129736_j31164282700431_2_alg».proof.Proof.Gen.KernelIdeal.Frame
import proofs.«129736_j31164282700431_2_alg».proof.Proof.Gen.KernelIdeal.Value
import proofs.«129736_j31164282700431_2_alg».proof.Proof.Gen.ReferenceIdeal
import proofs.«129736_j31164282700431_2_alg».proof.Proof.Gen.ReferenceIdeal.Run
import proofs.«129736_j31164282700431_2_alg».proof.Proof.Gen.ReferenceIdeal.Read
import proofs.«129736_j31164282700431_2_alg».proof.Proof.Gen.Pre_finite_inputs
import proofs.«129736_j31164282700431_2_alg».proof.Proof.ReferenceIsAffine
import proofs.«129736_j31164282700431_2_alg».proof.Proof.ArrayValue

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is four host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Over the extended reals both programs end with the dense layer of the (agreeing) arguments in their result. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
